-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v79)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v79) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_arg6 : FVec F S128x128 .f32) (main_arg7 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128 .f32) (main_arg6 : FVec F S128x128 .f32) (main_arg7 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S5000x128 : Shape := ⟨2, ![5000, 128]⟩
abbrev S1700000x128 : Shape := ⟨2, ![1700000, 128]⟩
abbrev S1x128 : Shape := ⟨2, ![1, 128]⟩

abbrev nBuf : Space → Nat
  | .hbm => 107
  | .vmem => 15
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S100000, .f32⟩
  | .hbm, ⟨22, _⟩ => ⟨S_, .i32⟩
  | .hbm, ⟨23, _⟩ => ⟨S1700000, .i32⟩
  | .hbm, ⟨24, _⟩ => ⟨S1700000, .i1⟩
  | .hbm, ⟨25, _⟩ => ⟨S_, .i32⟩
  | .hbm, ⟨26, _⟩ => ⟨S1700000, .i32⟩
  | .hbm, ⟨27, _⟩ => ⟨S1700000, .i32⟩
  | .hbm, ⟨28, _⟩ => ⟨S1700000, .i32⟩
  | .hbm, ⟨29, _⟩ => ⟨S1700000x1, .i32⟩
  | .hbm, ⟨30, _⟩ => ⟨S1700000, .f32⟩
  | .hbm, ⟨31, _⟩ => ⟨S_, .i32⟩
  | .hbm, ⟨32, _⟩ => ⟨S1700000, .i32⟩
  | .hbm, ⟨33, _⟩ => ⟨S1700000, .i1⟩
  | .hbm, ⟨34, _⟩ => ⟨S_, .i32⟩
  | .hbm, ⟨35, _⟩ => ⟨S1700000, .i32⟩
  | .hbm, ⟨36, _⟩ => ⟨S1700000, .i32⟩
  | .hbm, ⟨37, _⟩ => ⟨S1700000, .i32⟩
  | .hbm, ⟨38, _⟩ => ⟨S1700000x1, .i32⟩
  | .hbm, ⟨39, _⟩ => ⟨S1700000, .f32⟩
  | .hbm, ⟨40, _⟩ => ⟨S1700000, .f32⟩
  | .hbm, ⟨41, _⟩ => ⟨S100000x128, .f32⟩
  | .hbm, ⟨42, _⟩ => ⟨S_, .i32⟩
  | .hbm, ⟨43, _⟩ => ⟨S1700000, .i32⟩
  | .hbm, ⟨44, _⟩ => ⟨S1700000, .i1⟩
  | .hbm, ⟨45, _⟩ => ⟨S_, .i32⟩
  | .hbm, ⟨46, _⟩ => ⟨S1700000, .i32⟩
  | .hbm, ⟨47, _⟩ => ⟨S1700000, .i32⟩
  | .hbm, ⟨48, _⟩ => ⟨S1700000, .i32⟩
  | .hbm, ⟨49, _⟩ => ⟨S1700000x1, .i32⟩
  | .hbm, ⟨50, _⟩ => ⟨S1700000x128, .f32⟩
  | .hbm, ⟨51, _⟩ => ⟨S1700000x1, .f32⟩
  | .hbm, ⟨52, _⟩ => ⟨S1700000x128, .f32⟩
  | .hbm, ⟨53, _⟩ => ⟨S1700000x128, .f32⟩
  | .hbm, ⟨54, _⟩ => ⟨S_, .f32⟩
  | .hbm, ⟨55, _⟩ => ⟨S100000x128, .f32⟩
  | .hbm, ⟨56, _⟩ => ⟨S1700000x1, .i32⟩
  | .hbm, ⟨57, _⟩ => ⟨S100000x128, .f32⟩
  | .hbm, ⟨58, _⟩ => ⟨S1x128, .f32⟩
  | .hbm, ⟨59, _⟩ => ⟨S100000x128, .f32⟩
  | .hbm, ⟨60, _⟩ => ⟨S100000x128, .f32⟩
  | .hbm, ⟨61, _⟩ => ⟨S_, .f32⟩
  | .hbm, ⟨62, _⟩ => ⟨S100000x128, .f32⟩
  | .hbm, ⟨63, _⟩ => ⟨S100000x128, .f32⟩
  | .hbm, ⟨64, _⟩ => ⟨S100000x128, .f32⟩
  | .hbm, ⟨65, _⟩ => ⟨S_, .i32⟩
  | .hbm, ⟨66, _⟩ => ⟨S1700000, .i32⟩
  | .hbm, ⟨67, _⟩ => ⟨S1700000, .i1⟩
  | .hbm, ⟨68, _⟩ => ⟨S_, .i32⟩
  | .hbm, ⟨69, _⟩ => ⟨S1700000, .i32⟩
  | .hbm, ⟨70, _⟩ => ⟨S1700000, .i32⟩
  | .hbm, ⟨71, _⟩ => ⟨S1700000, .i32⟩
  | .hbm, ⟨72, _⟩ => ⟨S1700000x1, .i32⟩
  | .hbm, ⟨73, _⟩ => ⟨S1700000x128, .f32⟩
  | .hbm, ⟨74, _⟩ => ⟨S1700000x1, .f32⟩
  | .hbm, ⟨75, _⟩ => ⟨S1700000x128, .f32⟩
  | .hbm, ⟨76, _⟩ => ⟨S1700000x128, .f32⟩
  | .hbm, ⟨77, _⟩ => ⟨S_, .f32⟩
  | .hbm, ⟨78, _⟩ => ⟨S100000x128, .f32⟩
  | .hbm, ⟨79, _⟩ => ⟨S1700000x1, .i32⟩
  | .hbm, ⟨80, _⟩ => ⟨S100000x128, .f32⟩
  | .hbm, ⟨81, _⟩ => ⟨S1x128, .f32⟩
  | .hbm, ⟨82, _⟩ => ⟨S100000x128, .f32⟩
  | .hbm, ⟨83, _⟩ => ⟨S100000x128, .f32⟩
  | .hbm, ⟨84, _⟩ => ⟨S_, .f32⟩
  | .hbm, ⟨85, _⟩ => ⟨S100000x128, .f32⟩
  | .hbm, ⟨86, _⟩ => ⟨S100000x128, .f32⟩
  | .hbm, ⟨87, _⟩ => ⟨S100000x128, .f32⟩
  | .hbm, ⟨88, _⟩ => ⟨S_, .i32⟩
  | .hbm, ⟨89, _⟩ => ⟨S1700000, .i32⟩
  | .hbm, ⟨90, _⟩ => ⟨S1700000, .i1⟩
  | .hbm, ⟨91, _⟩ => ⟨S_, .i32⟩
  | .hbm, ⟨92, _⟩ => ⟨S1700000, .i32⟩
  | .hbm, ⟨93, _⟩ => ⟨S1700000, .i32⟩
  | .hbm, ⟨94, _⟩ => ⟨S1700000, .i32⟩
  | .hbm, ⟨95, _⟩ => ⟨S1700000x1, .i32⟩
  | .hbm, ⟨96, _⟩ => ⟨S1700000x128, .f32⟩
  | .hbm, ⟨97, _⟩ => ⟨S1700000x1, .f32⟩
  | .hbm, ⟨98, _⟩ => ⟨S1700000x128, .f32⟩
  | .hbm, ⟨99, _⟩ => ⟨S1700000x128, .f32⟩
  | .hbm, ⟨100, _⟩ => ⟨S_, .f32⟩
  | .hbm, ⟨101, _⟩ => ⟨S100000x128, .f32⟩
  | .hbm, ⟨102, _⟩ => ⟨S1700000x1, .i32⟩
  | .hbm, ⟨103, _⟩ => ⟨S100000x128, .f32⟩
  | .hbm, ⟨104, _⟩ => ⟨S1x128, .f32⟩
  | .hbm, ⟨105, _⟩ => ⟨S100000x128, .f32⟩
  | .hbm, ⟨106, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c : Ref sig .tc := ⟨.hbm, 22, rfl⟩
abbrev main_v12 : Ref sig .tc := ⟨.hbm, 23, rfl⟩
abbrev main_v13 : Ref sig .tc := ⟨.hbm, 24, rfl⟩
abbrev main_c_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_2 : Ref sig .tc := ⟨.hbm, 31, rfl⟩
abbrev main_v19 : Ref sig .tc := ⟨.hbm, 32, rfl⟩
abbrev main_v20 : Ref sig .tc := ⟨.hbm, 33, rfl⟩
abbrev main_c_3 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_c_4 : Ref sig .tc := ⟨.hbm, 42, rfl⟩
abbrev main_v28 : Ref sig .tc := ⟨.hbm, 43, rfl⟩
abbrev main_v29 : Ref sig .tc := ⟨.hbm, 44, rfl⟩
abbrev main_c_5 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_6 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_call0_cst : Ref sig .tc := ⟨.hbm, 61, rfl⟩
abbrev main_call0_v0 : Ref sig .tc := ⟨.hbm, 62, rfl⟩
abbrev main_v44 : Ref sig .tc := ⟨.hbm, 63, rfl⟩
abbrev main_v45 : Ref sig .tc := ⟨.hbm, 64, rfl⟩
abbrev main_c_7 : Ref sig .tc := ⟨.hbm, 65, rfl⟩
abbrev main_v46 : Ref sig .tc := ⟨.hbm, 66, rfl⟩
abbrev main_v47 : Ref sig .tc := ⟨.hbm, 67, rfl⟩
abbrev main_c_8 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_9 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_call1_cst : Ref sig .tc := ⟨.hbm, 84, rfl⟩
abbrev main_call1_v0 : Ref sig .tc := ⟨.hbm, 85, rfl⟩
abbrev main_v62 : Ref sig .tc := ⟨.hbm, 86, rfl⟩
abbrev main_v63 : Ref sig .tc := ⟨.hbm, 87, rfl⟩
abbrev main_c_10 : Ref sig .tc := ⟨.hbm, 88, rfl⟩
abbrev main_v64 : Ref sig .tc := ⟨.hbm, 89, rfl⟩
abbrev main_v65 : Ref sig .tc := ⟨.hbm, 90, rfl⟩
abbrev main_c_11 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_cst_12 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  shapeCasts_S5000x128_S5000x128 : S5000x128.ShapeCasts S5000x128
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v62) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v63) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩

abbrev nBuf : Space → Nat
  | .hbm => 107
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S100000, .f32⟩
  | .hbm, ⟨22, _⟩ => ⟨S_, .i32⟩
  | .hbm, ⟨23, _⟩ => ⟨S1700000, .i32⟩
  | .hbm, ⟨24, _⟩ => ⟨S1700000, .i1⟩
  | .hbm, ⟨25, _⟩ => ⟨S_, .i32⟩
  | .hbm, ⟨26, _⟩ => ⟨S1700000, .i32⟩
  | .hbm, ⟨27, _⟩ => ⟨S1700000, .i32⟩
  | .hbm, ⟨28, _⟩ => ⟨S1700000, .i32⟩
  | .hbm, ⟨29, _⟩ => ⟨S1700000x1, .i32⟩
  | .hbm, ⟨30, _⟩ => ⟨S1700000, .f32⟩
  | .hbm, ⟨31, _⟩ => ⟨S_, .i32⟩
  | .hbm, ⟨32, _⟩ => ⟨S1700000, .i32⟩
  | .hbm, ⟨33, _⟩ => ⟨S1700000, .i1⟩
  | .hbm, ⟨34, _⟩ => ⟨S_, .i32⟩
  | .hbm, ⟨35, _⟩ => ⟨S1700000, .i32⟩
  | .hbm, ⟨36, _⟩ => ⟨S1700000, .i32⟩
  | .hbm, ⟨37, _⟩ => ⟨S1700000, .i32⟩
  | .hbm, ⟨38, _⟩ => ⟨S1700000x1, .i32⟩
  | .hbm, ⟨39, _⟩ => ⟨S1700000, .f32⟩
  | .hbm, ⟨40, _⟩ => ⟨S1700000, .f32⟩
  | .hbm, ⟨41, _⟩ => ⟨S100000x128, .f32⟩
  | .hbm, ⟨42, _⟩ => ⟨S_, .i32⟩
  | .hbm, ⟨43, _⟩ => ⟨S1700000, .i32⟩
  | .hbm, ⟨44, _⟩ => ⟨S1700000, .i1⟩
  | .hbm, ⟨45, _⟩ => ⟨S_, .i32⟩
  | .hbm, ⟨46, _⟩ => ⟨S1700000, .i32⟩
  | .hbm, ⟨47, _⟩ => ⟨S1700000, .i32⟩
  | .hbm, ⟨48, _⟩ => ⟨S1700000, .i32⟩
  | .hbm, ⟨49, _⟩ => ⟨S1700000x1, .i32⟩
  | .hbm, ⟨50, _⟩ => ⟨S1700000x128, .f32⟩
  | .hbm, ⟨51, _⟩ => ⟨S1700000x1, .f32⟩
  | .hbm, ⟨52, _⟩ => ⟨S1700000x128, .f32⟩
  | .hbm, ⟨53, _⟩ => ⟨S1700000x128, .f32⟩
  | .hbm, ⟨54, _⟩ => ⟨S_, .f32⟩
  | .hbm, ⟨55, _⟩ => ⟨S100000x128, .f32⟩
  | .hbm, ⟨56, _⟩ => ⟨S1700000x1, .i32⟩
  | .hbm, ⟨57, _⟩ => ⟨S100000x128, .f32⟩
  | .hbm, ⟨58, _⟩ => ⟨S1x128, .f32⟩
  | .hbm, ⟨59, _⟩ => ⟨S100000x128, .f32⟩
  | .hbm, ⟨60, _⟩ => ⟨S100000x128, .f32⟩
  | .hbm, ⟨61, _⟩ => ⟨S_, .f32⟩
  | .hbm, ⟨62, _⟩ => ⟨S100000x128, .f32⟩
  | .hbm, ⟨63, _⟩ => ⟨S100000x128, .f32⟩
  | .hbm, ⟨64, _⟩ => ⟨S100000x128, .f32⟩
  | .hbm, ⟨65, _⟩ => ⟨S_, .i32⟩
  | .hbm, ⟨66, _⟩ => ⟨S1700000, .i32⟩
  | .hbm, ⟨67, _⟩ => ⟨S1700000, .i1⟩
  | .hbm, ⟨68, _⟩ => ⟨S_, .i32⟩
  | .hbm, ⟨69, _⟩ => ⟨S1700000, .i32⟩
  | .hbm, ⟨70, _⟩ => ⟨S1700000, .i32⟩
  | .hbm, ⟨71, _⟩ => ⟨S1700000, .i32⟩
  | .hbm, ⟨72, _⟩ => ⟨S1700000x1, .i32⟩
  | .hbm, ⟨73, _⟩ => ⟨S1700000x128, .f32⟩
  | .hbm, ⟨74, _⟩ => ⟨S1700000x1, .f32⟩
  | .hbm, ⟨75, _⟩ => ⟨S1700000x128, .f32⟩
  | .hbm, ⟨76, _⟩ => ⟨S1700000x128, .f32⟩
  | .hbm, ⟨77, _⟩ => ⟨S_, .f32⟩
  | .hbm, ⟨78, _⟩ => ⟨S100000x128, .f32⟩
  | .hbm, ⟨79, _⟩ => ⟨S1700000x1, .i32⟩
  | .hbm, ⟨80, _⟩ => ⟨S100000x128, .f32⟩
  | .hbm, ⟨81, _⟩ => ⟨S1x128, .f32⟩
  | .hbm, ⟨82, _⟩ => ⟨S100000x128, .f32⟩
  | .hbm, ⟨83, _⟩ => ⟨S100000x128, .f32⟩
  | .hbm, ⟨84, _⟩ => ⟨S_, .f32⟩
  | .hbm, ⟨85, _⟩ => ⟨S100000x128, .f32⟩
  | .hbm, ⟨86, _⟩ => ⟨S100000x128, .f32⟩
  | .hbm, ⟨87, _⟩ => ⟨S100000x128, .f32⟩
  | .hbm, ⟨88, _⟩ => ⟨S_, .i32⟩
  | .hbm, ⟨89, _⟩ => ⟨S1700000, .i32⟩
  | .hbm, ⟨90, _⟩ => ⟨S1700000, .i1⟩
  | .hbm, ⟨91, _⟩ => ⟨S_, .i32⟩
  | .hbm, ⟨92, _⟩ => ⟨S1700000, .i32⟩
  | .hbm, ⟨93, _⟩ => ⟨S1700000, .i32⟩
  | .hbm, ⟨94, _⟩ => ⟨S1700000, .i32⟩
  | .hbm, ⟨95, _⟩ => ⟨S1700000x1, .i32⟩
  | .hbm, ⟨96, _⟩ => ⟨S1700000x128, .f32⟩
  | .hbm, ⟨97, _⟩ => ⟨S1700000x1, .f32⟩
  | .hbm, ⟨98, _⟩ => ⟨S1700000x128, .f32⟩
  | .hbm, ⟨99, _⟩ => ⟨S1700000x128, .f32⟩
  | .hbm, ⟨100, _⟩ => ⟨S_, .f32⟩
  | .hbm, ⟨101, _⟩ => ⟨S100000x128, .f32⟩
  | .hbm, ⟨102, _⟩ => ⟨S1700000x1, .i32⟩
  | .hbm, ⟨103, _⟩ => ⟨S100000x128, .f32⟩
  | .hbm, ⟨104, _⟩ => ⟨S1x128, .f32⟩
  | .hbm, ⟨105, _⟩ => ⟨S100000x128, .f32⟩
  | .hbm, ⟨106, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c : Ref sig .tc := ⟨.hbm, 22, rfl⟩
abbrev main_v12 : Ref sig .tc := ⟨.hbm, 23, rfl⟩
abbrev main_v13 : Ref sig .tc := ⟨.hbm, 24, rfl⟩
abbrev main_c_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_2 : Ref sig .tc := ⟨.hbm, 31, rfl⟩
abbrev main_v19 : Ref sig .tc := ⟨.hbm, 32, rfl⟩
abbrev main_v20 : Ref sig .tc := ⟨.hbm, 33, rfl⟩
abbrev main_c_3 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_c_4 : Ref sig .tc := ⟨.hbm, 42, rfl⟩
abbrev main_v28 : Ref sig .tc := ⟨.hbm, 43, rfl⟩
abbrev main_v29 : Ref sig .tc := ⟨.hbm, 44, rfl⟩
abbrev main_c_5 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_6 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_call0_cst : Ref sig .tc := ⟨.hbm, 61, rfl⟩
abbrev main_call0_v0 : Ref sig .tc := ⟨.hbm, 62, rfl⟩
abbrev main_v44 : Ref sig .tc := ⟨.hbm, 63, rfl⟩
abbrev main_v45 : Ref sig .tc := ⟨.hbm, 64, rfl⟩
abbrev main_c_7 : Ref sig .tc := ⟨.hbm, 65, rfl⟩
abbrev main_v46 : Ref sig .tc := ⟨.hbm, 66, rfl⟩
abbrev main_v47 : Ref sig .tc := ⟨.hbm, 67, rfl⟩
abbrev main_c_8 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_9 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_call1_cst : Ref sig .tc := ⟨.hbm, 84, rfl⟩
abbrev main_call1_v0 : Ref sig .tc := ⟨.hbm, 85, rfl⟩
abbrev main_v62 : Ref sig .tc := ⟨.hbm, 86, rfl⟩
abbrev main_v63 : Ref sig .tc := ⟨.hbm, 87, rfl⟩
abbrev main_c_10 : Ref sig .tc := ⟨.hbm, 88, rfl⟩
abbrev main_v64 : Ref sig .tc := ⟨.hbm, 89, rfl⟩
abbrev main_v65 : Ref sig .tc := ⟨.hbm, 90, rfl⟩
abbrev main_c_11 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_cst_12 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

class Facts : Prop extends Facts₀ where

variable [Facts]
-- ==== Proof.KernelRun.lean ====
/-
  The idealized kernel's run, with the result array named.

  @main is nine segments: the host operations before the first dense kernel, that kernel's region, the host operations of
  the first layer's aggregation and its relu, the second region, the second layer's aggregation and relu, the third
  region, and the last aggregation. The buffer contents at each boundary are a fold from the launch memory: a host
  stretch applies its operations, a region leaves its result array at what its write-backs leave and every other buffer as
  it was. Every weakly fair execution terminates, nothing faulting, with every unscoped buffer at the last boundary's
  contents — so the result array ends at the last boundary's contents of its buffer, and the arguments end as launched.
-/
import proofs.«153386_j67018669686888_1_alg».proof.Proof.Gen.KernelIdeal.Frame

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result array at the last boundary's
    contents of its buffer and the argument arrays as launched. -/
theorem run_result : θ_run defs (onTc (τ := τ) (main (F := F))) ⟨m, fun _ => 0, ρ⟩ (fun r => ∀ c : Dev nD,
      r.2.mem ((c.tc : Thread nD τ).loc main_v79) = W9 m ρ c (Proc.devRef .tc main_v79)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v79 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c)⟩)

end Cert.KernelIdeal.Hand

end
-- ==== Proof.Kept.lean ====
/-
  The buffers every layer reads and none writes, at each boundary of the idealized kernel's run.

  The host operations before the first dense kernel compute, from the edge array alone, the source and destination node of
  every edge (self-loops appended) and every edge's normalisation `deg(src)^(-1/2) · deg(dst)^(-1/2)`; the same operations,
  in the same order, as the reference's. No later host operation and no region writes these three buffers or an argument
  array, so at every later boundary they hold what they held after that first stretch (the arguments: what was launched).
-/
import proofs.«153386_j67018669686888_1_alg».proof.Proof.Gen.KernelIdeal.Frame
import proofs.«153386_j67018669686888_1_alg».proof.Proof.Gen.ReferenceIdeal.Read
import Idealize.ShloMosaic.Lib.StableHlo.Run

set_option maxRecDepth 16384

noncomputable section

namespace Cert.KernelIdeal.Hand

open Idealize.ShloMosaic Idealize.ShloMosaic.TcCoe Idealize.SL.Sem Idealize.ShloMosaic.StableHlo
open Cert.KernelIdeal Cert.KernelIdeal.Gen
open Cert.ReferenceIdeal.Read

variable (m : (ℓ : Loc nD τ sig) → Buf (Elt Ideal) ℓ) (ρ : Dev nD → PrngReg)

/-- A buffer's contents through host stretches, read off the operations one at a time. -/
local macro "through_hosts" : tactic => `(tactic| (after_results_simp <;> rfl))

/-! ## After the first host stretch -/

/-- After the first host stretch: the source node of every edge, self-loops appended, as the reference computes it. -/
theorem W1_src (c : Dev nD) : W1 m ρ c (Proc.devRef .tc main_v3) = val_main_v3 (F := Ideal) (m ((c : Thread nD τ).loc main_arg1)) := by
  show StableHlo.after hostOps0 (W0 m ρ c) (Proc.devRef .tc main_v3) = _
  through_hosts

/-- After the first host stretch: the destination node of every edge, self-loops appended, as the reference computes it. -/
theorem W1_dst (c : Dev nD) : W1 m ρ c (Proc.devRef .tc main_v6) = val_main_v6 (F := Ideal) (m ((c : Thread nD τ).loc main_arg1)) := by
  show StableHlo.after hostOps0 (W0 m ρ c) (Proc.devRef .tc main_v6) = _
  through_hosts

/-- After the first host stretch: every edge's symmetric normalisation, as the reference computes it. -/
theorem W1_norm (c : Dev nD) : W1 m ρ c (Proc.devRef .tc main_v26) = val_main_v26 (F := Ideal) (m ((c : Thread nD τ).loc main_arg1)) := by
  show StableHlo.after hostOps0 (W0 m ρ c) (Proc.devRef .tc main_v26) = _
  through_hosts

theorem W1_arg0 (c : Dev nD) : W1 m ρ c (Proc.devRef .tc main_arg0) = m ((c : Thread nD τ).loc main_arg0) := by
  show StableHlo.after hostOps0 (W0 m ρ c) (Proc.devRef .tc main_arg0) = _
  through_hosts

theorem W1_arg2 (c : Dev nD) : W1 m ρ c (Proc.devRef .tc main_arg2) = m ((c : Thread nD τ).loc main_arg2) := by
  show StableHlo.after hostOps0 (W0 m ρ c) (Proc.devRef .tc main_arg2) = _
  through_hosts

theorem W1_arg3 (c : Dev nD) : W1 m ρ c (Proc.devRef .tc main_arg3) = m ((c : Thread nD τ).loc main_arg3) := by
  show StableHlo.after hostOps0 (W0 m ρ c) (Proc.devRef .tc main_arg3) = _
  through_hosts

theorem W1_arg4 (c : Dev nD) : W1 m ρ c (Proc.devRef .tc main_arg4) = m ((c : Thread nD τ).loc main_arg4) := by
  show StableHlo.after hostOps0 (W0 m ρ c) (Proc.devRef .tc main_arg4) = _
  through_hosts

theorem W1_arg5 (c : Dev nD) : W1 m ρ c (Proc.devRef .tc main_arg5) = m ((c : Thread nD τ).loc main_arg5) := by
  show StableHlo.after hostOps0 (W0 m ρ c) (Proc.devRef .tc main_arg5) = _
  through_hosts

theorem W1_arg6 (c : Dev nD) : W1 m ρ c (Proc.devRef .tc main_arg6) = m ((c : Thread nD τ).loc main_arg6) := by
  show StableHlo.after hostOps0 (W0 m ρ c) (Proc.devRef .tc main_arg6) = _
  through_hosts

theorem W1_arg7 (c : Dev nD) : W1 m ρ c (Proc.devRef .tc main_arg7) = m ((c : Thread nD τ).loc main_arg7) := by
  show StableHlo.after hostOps0 (W0 m ρ c) (Proc.devRef .tc main_arg7) = _
  through_hosts

/-! ## At the later boundaries: the first region, the first layer's host stretches, the second region, the second
    layer's host stretches, the third region -/

theorem W2_src (c : Dev nD) : W2 m ρ c (Proc.devRef .tc main_v3) = val_main_v3 (F := Ideal) (m ((c : Thread nD τ).loc main_arg1)) :=
  (W2_of_ne m ρ c main_v3 (by decide)).trans (W1_src m ρ c)

theorem W4_src (c : Dev nD) : W4 m ρ c (Proc.devRef .tc main_v3) = val_main_v3 (F := Ideal) (m ((c : Thread nD τ).loc main_arg1)) :=
  (show StableHlo.after hostOps1_1 (StableHlo.after hostOps1 (W2 m ρ c)) (Proc.devRef .tc main_v3) = W2 m ρ c (Proc.devRef .tc main_v3) by through_hosts).trans (W2_src m ρ c)

theorem W5_src (c : Dev nD) : W5 m ρ c (Proc.devRef .tc main_v3) = val_main_v3 (F := Ideal) (m ((c : Thread nD τ).loc main_arg1)) :=
  (W5_of_ne m ρ c main_v3 (by decide)).trans (W4_src m ρ c)

theorem W7_src (c : Dev nD) : W7 m ρ c (Proc.devRef .tc main_v3) = val_main_v3 (F := Ideal) (m ((c : Thread nD τ).loc main_arg1)) :=
  (show StableHlo.after hostOps2_1 (StableHlo.after hostOps2 (W5 m ρ c)) (Proc.devRef .tc main_v3) = W5 m ρ c (Proc.devRef .tc main_v3) by through_hosts).trans (W5_src m ρ c)

theorem W8_src (c : Dev nD) : W8 m ρ c (Proc.devRef .tc main_v3) = val_main_v3 (F := Ideal) (m ((c : Thread nD τ).loc main_arg1)) :=
  (W8_of_ne m ρ c main_v3 (by decide)).trans (W7_src m ρ c)

theorem W2_dst (c : Dev nD) : W2 m ρ c (Proc.devRef .tc main_v6) = val_main_v6 (F := Ideal) (m ((c : Thread nD τ).loc main_arg1)) :=
  (W2_of_ne m ρ c main_v6 (by decide)).trans (W1_dst m ρ c)

theorem W4_dst (c : Dev nD) : W4 m ρ c (Proc.devRef .tc main_v6) = val_main_v6 (F := Ideal) (m ((c : Thread nD τ).loc main_arg1)) :=
  (show StableHlo.after hostOps1_1 (StableHlo.after hostOps1 (W2 m ρ c)) (Proc.devRef .tc main_v6) = W2 m ρ c (Proc.devRef .tc main_v6) by through_hosts).trans (W2_dst m ρ c)

theorem W5_dst (c : Dev nD) : W5 m ρ c (Proc.devRef .tc main_v6) = val_main_v6 (F := Ideal) (m ((c : Thread nD τ).loc main_arg1)) :=
  (W5_of_ne m ρ c main_v6 (by decide)).trans (W4_dst m ρ c)

theorem W7_dst (c : Dev nD) : W7 m ρ c (Proc.devRef .tc main_v6) = val_main_v6 (F := Ideal) (m ((c : Thread nD τ).loc main_arg1)) :=
  (show StableHlo.after hostOps2_1 (StableHlo.after hostOps2 (W5 m ρ c)) (Proc.devRef .tc main_v6) = W5 m ρ c (Proc.devRef .tc main_v6) by through_hosts).trans (W5_dst m ρ c)

theorem W8_dst (c : Dev nD) : W8 m ρ c (Proc.devRef .tc main_v6) = val_main_v6 (F := Ideal) (m ((c : Thread nD τ).loc main_arg1)) :=
  (W8_of_ne m ρ c main_v6 (by decide)).trans (W7_dst m ρ c)

theorem W2_norm (c : Dev nD) : W2 m ρ c (Proc.devRef .tc main_v26) = val_main_v26 (F := Ideal) (m ((c : Thread nD τ).loc main_arg1)) :=
  (W2_of_ne m ρ c main_v26 (by decide)).trans (W1_norm m ρ c)

theorem W4_norm (c : Dev nD) : W4 m ρ c (Proc.devRef .tc main_v26) = val_main_v26 (F := Ideal) (m ((c : Thread nD τ).loc main_arg1)) :=
  (show StableHlo.after hostOps1_1 (StableHlo.after hostOps1 (W2 m ρ c)) (Proc.devRef .tc main_v26) = W2 m ρ c (Proc.devRef .tc main_v26) by through_hosts).trans (W2_norm m ρ c)

theorem W5_norm (c : Dev nD) : W5 m ρ c (Proc.devRef .tc main_v26) = val_main_v26 (F := Ideal) (m ((c : Thread nD τ).loc main_arg1)) :=
  (W5_of_ne m ρ c main_v26 (by decide)).trans (W4_norm m ρ c)

theorem W7_norm (c : Dev nD) : W7 m ρ c (Proc.devRef .tc main_v26) = val_main_v26 (F := Ideal) (m ((c : Thread nD τ).loc main_arg1)) :=
  (show StableHlo.after hostOps2_1 (StableHlo.after hostOps2 (W5 m ρ c)) (Proc.devRef .tc main_v26) = W5 m ρ c (Proc.devRef .tc main_v26) by through_hosts).trans (W5_norm m ρ c)

theorem W8_norm (c : Dev nD) : W8 m ρ c (Proc.devRef .tc main_v26) = val_main_v26 (F := Ideal) (m ((c : Thread nD τ).loc main_arg1)) :=
  (W8_of_ne m ρ c main_v26 (by decide)).trans (W7_norm m ρ c)

theorem W2_arg3 (c : Dev nD) : W2 m ρ c (Proc.devRef .tc main_arg3) = m ((c : Thread nD τ).loc main_arg3) :=
  (W2_of_ne m ρ c main_arg3 (by decide)).trans (W1_arg3 m ρ c)

theorem W2_arg4 (c : Dev nD) : W2 m ρ c (Proc.devRef .tc main_arg4) = m ((c : Thread nD τ).loc main_arg4) :=
  (W2_of_ne m ρ c main_arg4 (by decide)).trans (W1_arg4 m ρ c)

theorem W4_arg4 (c : Dev nD) : W4 m ρ c (Proc.devRef .tc main_arg4) = m ((c : Thread nD τ).loc main_arg4) :=
  (show StableHlo.after hostOps1_1 (StableHlo.after hostOps1 (W2 m ρ c)) (Proc.devRef .tc main_arg4) = W2 m ρ c (Proc.devRef .tc main_arg4) by through_hosts).trans (W2_arg4 m ρ c)

theorem W2_arg5 (c : Dev nD) : W2 m ρ c (Proc.devRef .tc main_arg5) = m ((c : Thread nD τ).loc main_arg5) :=
  (W2_of_ne m ρ c main_arg5 (by decide)).trans (W1_arg5 m ρ c)

theorem W4_arg5 (c : Dev nD) : W4 m ρ c (Proc.devRef .tc main_arg5) = m ((c : Thread nD τ).loc main_arg5) :=
  (show StableHlo.after hostOps1_1 (StableHlo.after hostOps1 (W2 m ρ c)) (Proc.devRef .tc main_arg5) = W2 m ρ c (Proc.devRef .tc main_arg5) by through_hosts).trans (W2_arg5 m ρ c)

theorem W5_arg5 (c : Dev nD) : W5 m ρ c (Proc.devRef .tc main_arg5) = m ((c : Thread nD τ).loc main_arg5) :=
  (W5_of_ne m ρ c main_arg5 (by decide)).trans (W4_arg5 m ρ c)

theorem W2_arg6 (c : Dev nD) : W2 m ρ c (Proc.devRef .tc main_arg6) = m ((c : Thread nD τ).loc main_arg6) :=
  (W2_of_ne m ρ c main_arg6 (by decide)).trans (W1_arg6 m ρ c)

theorem W4_arg6 (c : Dev nD) : W4 m ρ c (Proc.devRef .tc main_arg6) = m ((c : Thread nD τ).loc main_arg6) :=
  (show StableHlo.after hostOps1_1 (StableHlo.after hostOps1 (W2 m ρ c)) (Proc.devRef .tc main_arg6) = W2 m ρ c (Proc.devRef .tc main_arg6) by through_hosts).trans (W2_arg6 m ρ c)

theorem W5_arg6 (c : Dev nD) : W5 m ρ c (Proc.devRef .tc main_arg6) = m ((c : Thread nD τ).loc main_arg6) :=
  (W5_of_ne m ρ c main_arg6 (by decide)).trans (W4_arg6 m ρ c)

theorem W7_arg6 (c : Dev nD) : W7 m ρ c (Proc.devRef .tc main_arg6) = m ((c : Thread nD τ).loc main_arg6) :=
  (show StableHlo.after hostOps2_1 (StableHlo.after hostOps2 (W5 m ρ c)) (Proc.devRef .tc main_arg6) = W5 m ρ c (Proc.devRef .tc main_arg6) by through_hosts).trans (W5_arg6 m ρ c)

theorem W2_arg7 (c : Dev nD) : W2 m ρ c (Proc.devRef .tc main_arg7) = m ((c : Thread nD τ).loc main_arg7) :=
  (W2_of_ne m ρ c main_arg7 (by decide)).trans (W1_arg7 m ρ c)

theorem W4_arg7 (c : Dev nD) : W4 m ρ c (Proc.devRef .tc main_arg7) = m ((c : Thread nD τ).loc main_arg7) :=
  (show StableHlo.after hostOps1_1 (StableHlo.after hostOps1 (W2 m ρ c)) (Proc.devRef .tc main_arg7) = W2 m ρ c (Proc.devRef .tc main_arg7) by through_hosts).trans (W2_arg7 m ρ c)

theorem W5_arg7 (c : Dev nD) : W5 m ρ c (Proc.devRef .tc main_arg7) = m ((c : Thread nD τ).loc main_arg7) :=
  (W5_of_ne m ρ c main_arg7 (by decide)).trans (W4_arg7 m ρ c)

theorem W7_arg7 (c : Dev nD) : W7 m ρ c (Proc.devRef .tc main_arg7) = m ((c : Thread nD τ).loc main_arg7) :=
  (show StableHlo.after hostOps2_1 (StableHlo.after hostOps2 (W5 m ρ c)) (Proc.devRef .tc main_arg7) = W5 m ρ c (Proc.devRef .tc main_arg7) by through_hosts).trans (W5_arg7 m ρ c)

theorem W8_arg7 (c : Dev nD) : W8 m ρ c (Proc.devRef .tc main_arg7) = m ((c : Thread nD τ).loc main_arg7) :=
  (W8_of_ne m ρ c main_arg7 (by decide)).trans (W7_arg7 m ρ c)

end Cert.KernelIdeal.Hand

end
-- ==== Proof.LibPlainDot.lean ====
/-
  A plain matrix product read at an index, at the ideal values.

  For the dimension numbers of an `M × K` by `K × N` product with no batch axis (`DotDims.plain M K N`: the left
  operand contracted on its columns, the right on its rows), the operand indices at the result index `(r, c)` and the
  contraction position `k` are `(r, k)` and `(k, c)`. So both the host's `dot_general` and a kernel's `tpu.matmul`
  into a zero accumulator are, at `(r, c)`, the textbook sum `∑ k, X (r, k) · W (k, c)` over the extended reals —
  whatever the extents, the element formats of the operands and the precision or schedule keys.
-/
import Idealize.ShloMosaic.Lib.ValueIdx
import Idealize.ShloMosaic.PureOps.Ideal.Laws

noncomputable section

namespace Idealize.ShloMosaic.PlainDot

open Idealize.ShloMosaic Idealize.ShloMosaic.ValueIdx

variable {φ₁ φ₂ : FTy}

/-- The plain product contracts over one axis, -/
theorem contr_rank (M K N : Nat) : (DotDims.plain M K N).contr.rank = 1 := rfl
/-- of extent `K`. -/
theorem contr_size (M K N : Nat) : (DotDims.plain M K N).contr.size ⟨0, by rw [contr_rank]; omega⟩ = K := rfl

/-- The left operand's index at result index `(r, c)` and the `k`-th contraction position is `(r, k)`. -/
theorem lhsIdx_ix2 (M K N : Nat) (r : Fin M) (c : Fin N) (k : Fin K) :
    (DotDims.plain M K N).lhsIdx (ix2 r c) ((contrEquiv1 (DotDims.plain M K N) K rfl rfl).symm k) = ix2 r k :=
  funext fun a => Fin.ext (by
    match a with
    | ⟨0, _⟩ => rfl
    | ⟨1, _⟩ => exact contrEquiv1_symm_val (DotDims.plain M K N) K rfl rfl k)

/-- The right operand's is `(k, c)`. -/
theorem rhsIdx_ix2 (M K N : Nat) (r : Fin M) (c : Fin N) (k : Fin K) :
    (DotDims.plain M K N).rhsIdx (ix2 r c) ((contrEquiv1 (DotDims.plain M K N) K rfl rfl).symm k) = ix2 k c :=
  funext fun a => Fin.ext (by
    match a with
    | ⟨0, _⟩ => exact contrEquiv1_symm_val (DotDims.plain M K N) K rfl rfl k
    | ⟨1, _⟩ => rfl)

/-- The host's plain `dot_general` at `(r, c)`: the sum over `k` of `X (r, k) · W (k, c)`. -/
theorem dotGeneral_apply (M K N : Nat) (prec : Option ContractPrecision) (sched : HostSchedule)
    (X : FVec Ideal ⟨2, ![M, K]⟩ φ₁) (W : FVec Ideal ⟨2, ![K, N]⟩ φ₂) (r : Fin M) (c : Fin N) :
    FloatOps.dotGeneral (DotDims.plain M K N) prec sched X W (ix2 r c) = ∑ k : Fin K, X (ix2 r k) * W (ix2 k c) := by
  rw [Ideal.dotGeneral_apply, ← Equiv.sum_comp (contrEquiv1 (DotDims.plain M K N) K rfl rfl).symm]
  refine Finset.sum_congr rfl fun k _ => ?_
  rw [lhsIdx_ix2, rhsIdx_ix2]

/-- A kernel's plain `tpu.matmul` into the zero accumulator at `(r, c)`: the same sum. -/
theorem matmul_zero_apply (M K N : Nat) (prec : Option ContractPrecision)
    (X : FVec Ideal ⟨2, ![M, K]⟩ φ₁) (W : FVec Ideal ⟨2, ![K, N]⟩ φ₂) (r : Fin M) (c : Fin N) :
    FloatOps.matmul (DotDims.plain M K N) prec X W (constant ⟨2, ![M, N]⟩ .f32 0x00000000#32) (ix2 r c)
      = ∑ k : Fin K, X (ix2 r k) * W (ix2 k c) := by
  rw [Ideal.matmul_constant_zero_apply, ← Equiv.sum_comp (contrEquiv1 (DotDims.plain M K N) K rfl rfl).symm]
  refine Finset.sum_congr rfl fun k _ => ?_
  rw [lhsIdx_ix2, rhsIdx_ix2]

end Idealize.ShloMosaic.PlainDot

end
-- ==== Proof.Spec.lean ====
/-
  The dense product of one graph-convolution layer, as one function of whole arrays.

  `mm X W` is the [100000, 128] by [128, 128] matrix product at the ideal values: at row `r` and column `c` it is
  the textbook sum over `k` of `X (r, k) · W (k, c)` on the extended reals. Sums of extended reals may be taken in any
  order and grouping, so a product computed row block by row block is the same function.
-/
import proofs.«153386_j67018669686888_1_alg».proof.Proof.LibPlainDot

noncomputable section

namespace Cert.Gcn

open Idealize.ShloMosaic Idealize.ShloMosaic.ValueIdx

/-- Node features: 100000 nodes, 128 channels. -/
abbrev SN : Shape := ⟨2, ![100000, 128]⟩
/-- A layer's weights: 128 by 128. -/
abbrev SW : Shape := ⟨2, ![128, 128]⟩
/-- A block of 5000 nodes' features. -/
abbrev SB : Shape := ⟨2, ![5000, 128]⟩

/-- The dense product of the node features with the layer's weights, the contraction summed exactly. -/
def mm (X : FVec Ideal SN .f32) (W : FVec Ideal SW .f32) : FVec Ideal SN .f32 :=
  FloatOps.dotGeneral (DotDims.plain 100000 128 128) none .single X W

/-- At any index the product is the sum over `k` of the row's `k`-th feature times the column's `k`-th weight. -/
theorem mm_at (X : FVec Ideal SN .f32) (W : FVec Ideal SW .f32) (i : SN.Idx) :
    mm X W i = ∑ k : Fin 128, X (ix2 (n0 := 100000) (i 0) k) * W (ix2 k (n1 := 128) (i 1)) := by
  unfold mm
  exact (congrArg (FloatOps.dotGeneral (DotDims.plain 100000 128 128) none .single X W) (eq_ix2 i)).trans
    (PlainDot.dotGeneral_apply 100000 128 128 none .single X W (i 0) (i 1))

/-- A 5000-row block times the weights into a zero accumulator, at an index of the block: the same sum over the block's
    row. The operands may have been rounded to a narrower format on the way in: at the ideal values that changes nothing. -/
theorem mmBlock_at {φ₁ φ₂ : FTy} (x : FVec Ideal SB φ₁) (w : FVec Ideal SW φ₂) (j : SB.Idx) :
    FloatOps.matmul (DotDims.plain 5000 128 128) none x w (constant SB .f32 0x00000000#32) j
      = ∑ k : Fin 128, x (ix2 (n0 := 5000) (j 0) k) * w (ix2 k (n1 := 128) (j 1)) :=
  (congrArg (FloatOps.matmul (DotDims.plain 5000 128 128) none x w (constant SB .f32 0x00000000#32)) (eq_ix2 j)).trans
    (PlainDot.matmul_zero_apply 5000 128 128 none x w (j 0) (j 1))

end Cert.Gcn

end
-- ==== Proof.Payload.lean ====
/-
  What each of the three dense kernels computes from the blocks it loads, read at an index of the block.

  Each body rounds its 5000-row block of features and its 128 by 128 weights to bf16, multiplies them on the matrix
  unit into a zero accumulator, and stores the product. At the ideal values the rounding is the identity and the
  product at row `r`, column `c` of the block is the exact sum over `k` of `x (r, k) · w (k, c)`. The second and third
  kernels first cast the loaded block to its own shape, which changes nothing.
-/
import proofs.«153386_j67018669686888_1_alg».proof.Proof.Gen.KernelIdeal.Skeleton
import proofs.«153386_j67018669686888_1_alg».proof.Proof.Spec
import Idealize.ShloMosaic.Lib.Pipeline.Value

noncomputable section

namespace Cert.KernelIdeal.Hand

open Idealize.ShloMosaic Idealize.ShloMosaic.ValueIdx Cert.KernelIdeal Cert.KernelIdeal.Gen Cert.Gcn

/-- The first kernel's stored block at an index. -/
theorem pay0_at (x0 : Vec Ideal S5000x128 .f32) (x1 : Vec Ideal S128x128 .f32) (j : S5000x128.Idx) :
    k0_pay1 (F := Ideal) x0 x1 j = ∑ k : Fin 128, x0 (ix2 (n0 := 5000) (j 0) k) * x1 (ix2 k (n1 := 128) (j 1)) :=
  mmBlock_at (φ₁ := .bf16) (φ₂ := .bf16) x0 x1 j

/-- The second kernel's stored block at an index. -/
theorem pay1_at (x0 : Vec Ideal S5000x128 .f32) (x1 : Vec Ideal S128x128 .f32) (j : S5000x128.Idx) :
    k1_pay1 (F := Ideal) x0 x1 j = ∑ k : Fin 128, x0 (ix2 (n0 := 5000) (j 0) k) * x1 (ix2 k (n1 := 128) (j 1)) := by
  unfold k1_pay1
  simp only [shapeCast_self]
  exact mmBlock_at (φ₁ := .bf16) (φ₂ := .bf16) x0 x1 j

/-- The third kernel's stored block at an index. -/
theorem pay2_at (x0 : Vec Ideal S5000x128 .f32) (x1 : Vec Ideal S128x128 .f32) (j : S5000x128.Idx) :
    k2_pay1 (F := Ideal) x0 x1 j = ∑ k : Fin 128, x0 (ix2 (n0 := 5000) (j 0) k) * x1 (ix2 k (n1 := 128) (j 1)) := by
  unfold k2_pay1
  simp only [shapeCast_self]
  exact mmBlock_at (φ₁ := .bf16) (φ₂ := .bf16) x0 x1 j

end Cert.KernelIdeal.Hand

end
-- ==== Proof.Region0.lean ====
/-
  The first dense kernel's result array, as one function of the arrays the region finds.

  The grid has 20 points. Point `t` loads rows `5000 t … 5000 t + 4999` of the feature array and the whole weight array,
  and writes back the product of the two as rows `5000 t … 5000 t + 4999` of the result. Row `r` of the block is row
  `5000 t + r` of the features, so what point `t` writes back is block `t` of the whole-array product `mm`; the 20 blocks
  tile the 100000 rows (row `r` lies in block `r / 5000`), so after the region the result array holds `mm` of the
  features and the weights as the region found them.
-/
import proofs.«153386_j67018669686888_1_alg».proof.Proof.Gen.KernelIdeal.Frame
import proofs.«153386_j67018669686888_1_alg».proof.Proof.Payload
import Idealize.ShloMosaic.Lib.Pipeline.Value

set_option maxRecDepth 16384

noncomputable section

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen Cert.Gcn

variable (V : (c : Dev nD) → (b : Ref sig .tc) → Buf (Elt Ideal) ((c : Thread nD τ).loc b))

theorem zero_offsets0 : (![0, 0] : Fin 2 → Nat) = fun _ => 0 := funext fun a => by fin_cases a <;> rfl

/-- The block indices over the grid: the features and the result move with the point along the rows, the weights stay. -/
theorem blockIndex0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the whole-array product. -/
theorem flushed0 (c : Dev nD) (t : Fin cfg0.N) :
    (dat0 V c).flushed 2 t = ((cfg0.win 2).blk t).view.read (Elt Ideal) (mm (V c main_arg0) (V c main_arg2)) := by
  show (cfg0.win 2).cut (grid0.coords t) ((dat0 V c).after 2 t) = _
  rw [after0_2]
  unfold out0_2
  rw [View.canon_unit_zero zero_offsets0]
  simp only [View.ld_unit_zero (S := S5000x128) zero_offsets0, View.ld_unit_zero (S := S128x128) zero_offsets0]
  obtain ⟨e00, e01, e10, e11, e20, e21⟩ := blockIndex0 t
  funext j
  show k0_pay1 (F := Ideal) (iblk0 V c 0 t) (iblk0 V c 1 t) j
    = mm (V c main_arg0) (V c main_arg2) (((cfg0.win 2).blk t).view.emb j)
  refine (pay0_at _ _ j).trans ((Finset.sum_congr rfl fun k _ => ?_).trans (mm_at _ _ _).symm)
  refine congrArg₂ (· * ·) ?_ ?_
  · show V c main_arg0 (((cfg0.win 0).blk t).view.emb (ix2 (n0 := 5000) (j 0) k)) = V c main_arg0 _
    refine congrArg (V c main_arg0) (funext fun a => Fin.ext ?_)
    match a with
    | ⟨0, _⟩ =>
      show win0_0.index t (0 : Fin 2) * 5000 + 1 * (j 0).val = win0_2.index t (0 : Fin 2) * 5000 + 1 * (j 0).val
      omega
    | ⟨1, _⟩ =>
      show win0_0.index t (1 : Fin 2) * 128 + 1 * k.val = k.val
      omega
  · show V c main_arg2 (((cfg0.win 1).blk t).view.emb (ix2 k (n1 := 128) (j 1))) = V c main_arg2 _
    refine congrArg (V c main_arg2) (funext fun a => Fin.ext ?_)
    match a with
    | ⟨0, _⟩ =>
      show win0_1.index t (0 : Fin 2) * 128 + 1 * k.val = k.val
      omega
    | ⟨1, _⟩ =>
      show win0_1.index t (1 : Fin 2) * 128 + 1 * (j 1).val = win0_2.index t (1 : Fin 2) * 128 + 1 * (j 1).val
      omega

/-- An index of the result array is in point `t`'s block iff each coordinate is in the block's range on its axis. -/
theorem memBlock0 (t : Fin cfg0.N) (i : S100000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v27).slice (win0_2.rect t)).set ↔ _
  rw [View.set_slice_whole, Rect.mem_set_unit]
  exact Iff.rfl

/-- Every row of the result lies in the block of the point `row / 5000`, which writes back. -/
theorem cover0 (i : S100000x128.Idx) :
    ∃ t : Fin cfg0.N, (cfg0.win 2).flush t = true ∧ i ∈ ((cfg0.win 2).blk t).view.set := by
  have hN : cfg0.N = 20 := N_0
  have hi0 : (i 0).val < 100000 := (i 0).isLt
  have hi1 : (i 1).val < 128 := (i 1).isLt
  have ht : (i 0).val / 5000 < cfg0.N := by rw [hN]; omega
  obtain ⟨-, -, -, -, e20, e21⟩ := blockIndex0 ⟨(i 0).val / 5000, ht⟩
  refine ⟨⟨(i 0).val / 5000, ht⟩, flush0_2 _, ?_⟩
  rw [memBlock0]
  intro a
  match a with
  | ⟨0, _⟩ =>
    show win0_2.index ⟨(i 0).val / 5000, ht⟩ (0 : Fin 2) * 5000 ≤ (i 0).val
      ∧ (i 0).val < win0_2.index ⟨(i 0).val / 5000, ht⟩ (0 : Fin 2) * 5000 + 5000
    rw [e20]
    show (i 0).val / 5000 * 5000 ≤ (i 0).val ∧ (i 0).val < (i 0).val / 5000 * 5000 + 5000
    omega
  | ⟨1, _⟩ =>
    show win0_2.index ⟨(i 0).val / 5000, ht⟩ (1 : Fin 2) * 128 ≤ (i 1).val
      ∧ (i 1).val < win0_2.index ⟨(i 0).val / 5000, ht⟩ (1 : Fin 2) * 128 + 128
    omega

/-- After the region the result array holds the whole-array product of the features and the weights the region found. -/
theorem region0 (c : Dev nD) :
    (dat0 V c).arrAt 2 cfg0.N = mm (V c main_arg0) (V c main_arg2) :=
  (dat0 V c).arrAt_eq_of_cover 2 (mm (V c main_arg0) (V c main_arg2)) (fun t _ => flushed0 V c t) cover0

end Cert.KernelIdeal.Hand

end
-- ==== Proof.Region1.lean ====
/-
  The second dense kernel's result array, as one function of the arrays the region finds.

  The grid has 20 points. Point `t` loads rows `5000 t … 5000 t + 4999` of the first layer's output and the whole weight array,
  and writes back the product of the two as rows `5000 t … 5000 t + 4999` of the result. Row `r` of the block is row
  `5000 t + r` of the features, so what point `t` writes back is block `t` of the whole-array product `mm`; the 20 blocks
  tile the 100000 rows (row `r` lies in block `r / 5000`), so after the region the result array holds `mm` of the
  features and the weights as the region found them.
-/
import proofs.«153386_j67018669686888_1_alg».proof.Proof.Gen.KernelIdeal.Frame
import proofs.«153386_j67018669686888_1_alg».proof.Proof.Payload
import Idealize.ShloMosaic.Lib.Pipeline.Value

set_option maxRecDepth 16384

noncomputable section

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen Cert.Gcn

variable (V : (c : Dev nD) → (b : Ref sig .tc) → Buf (Elt Ideal) ((c : Thread nD τ).loc b))

theorem zero_offsets1 : (![0, 0] : Fin 2 → Nat) = fun _ => 0 := funext fun a => by fin_cases a <;> rfl

/-- The block indices over the grid: the features and the result move with the point along the rows, the weights stay. -/
theorem blockIndex1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is block `t` of the whole-array product. -/
theorem flushed1 (c : Dev nD) (t : Fin cfg1.N) :
    (dat1 V c).flushed 2 t = ((cfg1.win 2).blk t).view.read (Elt Ideal) (mm (V c main_v44) (V c main_arg4)) := by
  show (cfg1.win 2).cut (grid1.coords t) ((dat1 V c).after 2 t) = _
  rw [after1_2]
  unfold out1_2
  rw [View.canon_unit_zero zero_offsets1]
  simp only [View.ld_unit_zero (S := S5000x128) zero_offsets1, View.ld_unit_zero (S := S128x128) zero_offsets1]
  obtain ⟨e00, e01, e10, e11, e20, e21⟩ := blockIndex1 t
  funext j
  show k1_pay1 (F := Ideal) (iblk1 V c 0 t) (iblk1 V c 1 t) j
    = mm (V c main_v44) (V c main_arg4) (((cfg1.win 2).blk t).view.emb j)
  refine (pay1_at _ _ j).trans ((Finset.sum_congr rfl fun k _ => ?_).trans (mm_at _ _ _).symm)
  refine congrArg₂ (· * ·) ?_ ?_
  · show V c main_v44 (((cfg1.win 0).blk t).view.emb (ix2 (n0 := 5000) (j 0) k)) = V c main_v44 _
    refine congrArg (V c main_v44) (funext fun a => Fin.ext ?_)
    match a with
    | ⟨0, _⟩ =>
      show win1_0.index t (0 : Fin 2) * 5000 + 1 * (j 0).val = win1_2.index t (0 : Fin 2) * 5000 + 1 * (j 0).val
      omega
    | ⟨1, _⟩ =>
      show win1_0.index t (1 : Fin 2) * 128 + 1 * k.val = k.val
      omega
  · show V c main_arg4 (((cfg1.win 1).blk t).view.emb (ix2 k (n1 := 128) (j 1))) = V c main_arg4 _
    refine congrArg (V c main_arg4) (funext fun a => Fin.ext ?_)
    match a with
    | ⟨0, _⟩ =>
      show win1_1.index t (0 : Fin 2) * 128 + 1 * k.val = k.val
      omega
    | ⟨1, _⟩ =>
      show win1_1.index t (1 : Fin 2) * 128 + 1 * (j 1).val = win1_2.index t (1 : Fin 2) * 128 + 1 * (j 1).val
      omega

/-- An index of the result array is in point `t`'s block iff each coordinate is in the block's range on its axis. -/
theorem memBlock1 (t : Fin cfg1.N) (i : S100000x128.Idx) :
    i ∈ ((cfg1.win 2).blk t).view.set ↔ ∀ a : Fin 2, win1_2.index t a * S5000x128.size a ≤ (i a).val
      ∧ (i a).val < win1_2.index t a * S5000x128.size a + S5000x128.size a := by
  show i ∈ ((View.whole main_v45).slice (win1_2.rect t)).set ↔ _
  rw [View.set_slice_whole, Rect.mem_set_unit]
  exact Iff.rfl

/-- Every row of the result lies in the block of the point `row / 5000`, which writes back. -/
theorem cover1 (i : S100000x128.Idx) :
    ∃ t : Fin cfg1.N, (cfg1.win 2).flush t = true ∧ i ∈ ((cfg1.win 2).blk t).view.set := by
  have hN : cfg1.N = 20 := N_1
  have hi0 : (i 0).val < 100000 := (i 0).isLt
  have hi1 : (i 1).val < 128 := (i 1).isLt
  have ht : (i 0).val / 5000 < cfg1.N := by rw [hN]; omega
  obtain ⟨-, -, -, -, e20, e21⟩ := blockIndex1 ⟨(i 0).val / 5000, ht⟩
  refine ⟨⟨(i 0).val / 5000, ht⟩, flush1_2 _, ?_⟩
  rw [memBlock1]
  intro a
  match a with
  | ⟨0, _⟩ =>
    show win1_2.index ⟨(i 0).val / 5000, ht⟩ (0 : Fin 2) * 5000 ≤ (i 0).val
      ∧ (i 0).val < win1_2.index ⟨(i 0).val / 5000, ht⟩ (0 : Fin 2) * 5000 + 5000
    rw [e20]
    show (i 0).val / 5000 * 5000 ≤ (i 0).val ∧ (i 0).val < (i 0).val / 5000 * 5000 + 5000
    omega
  | ⟨1, _⟩ =>
    show win1_2.index ⟨(i 0).val / 5000, ht⟩ (1 : Fin 2) * 128 ≤ (i 1).val
      ∧ (i 1).val < win1_2.index ⟨(i 0).val / 5000, ht⟩ (1 : Fin 2) * 128 + 128
    omega

/-- After the region the result array holds the whole-array product of the features and the weights the region found. -/
theorem region1 (c : Dev nD) :
    (dat1 V c).arrAt 2 cfg1.N = mm (V c main_v44) (V c main_arg4) :=
  (dat1 V c).arrAt_eq_of_cover 2 (mm (V c main_v44) (V c main_arg4)) (fun t _ => flushed1 V c t) cover1

end Cert.KernelIdeal.Hand

end
-- ==== Proof.Region2.lean ====
/-
  The third dense kernel's result array, as one function of the arrays the region finds.

  The grid has 20 points. Point `t` loads rows `5000 t … 5000 t + 4999` of the second layer's output and the whole weight array,
  and writes back the product of the two as rows `5000 t … 5000 t + 4999` of the result. Row `r` of the block is row
  `5000 t + r` of the features, so what point `t` writes back is block `t` of the whole-array product `mm`; the 20 blocks
  tile the 100000 rows (row `r` lies in block `r / 5000`), so after the region the result array holds `mm` of the
  features and the weights as the region found them.
-/
import proofs.«153386_j67018669686888_1_alg».proof.Proof.Gen.KernelIdeal.Frame
import proofs.«153386_j67018669686888_1_alg».proof.Proof.Payload
import Idealize.ShloMosaic.Lib.Pipeline.Value

set_option maxRecDepth 16384

noncomputable section

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen Cert.Gcn

variable (V : (c : Dev nD) → (b : Ref sig .tc) → Buf (Elt Ideal) ((c : Thread nD τ).loc b))

theorem zero_offsets2 : (![0, 0] : Fin 2 → Nat) = fun _ => 0 := funext fun a => by fin_cases a <;> rfl

/-- The block indices over the grid: the features and the result move with the point along the rows, the weights stay. -/
theorem blockIndex2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point `t` writes back is block `t` of the whole-array product. -/
theorem flushed2 (c : Dev nD) (t : Fin cfg2.N) :
    (dat2 V c).flushed 2 t = ((cfg2.win 2).blk t).view.read (Elt Ideal) (mm (V c main_v62) (V c main_arg6)) := by
  show (cfg2.win 2).cut (grid2.coords t) ((dat2 V c).after 2 t) = _
  rw [after2_2]
  unfold out2_2
  rw [View.canon_unit_zero zero_offsets2]
  simp only [View.ld_unit_zero (S := S5000x128) zero_offsets2, View.ld_unit_zero (S := S128x128) zero_offsets2]
  obtain ⟨e00, e01, e10, e11, e20, e21⟩ := blockIndex2 t
  funext j
  show k2_pay1 (F := Ideal) (iblk2 V c 0 t) (iblk2 V c 1 t) j
    = mm (V c main_v62) (V c main_arg6) (((cfg2.win 2).blk t).view.emb j)
  refine (pay2_at _ _ j).trans ((Finset.sum_congr rfl fun k _ => ?_).trans (mm_at _ _ _).symm)
  refine congrArg₂ (· * ·) ?_ ?_
  · show V c main_v62 (((cfg2.win 0).blk t).view.emb (ix2 (n0 := 5000) (j 0) k)) = V c main_v62 _
    refine congrArg (V c main_v62) (funext fun a => Fin.ext ?_)
    match a with
    | ⟨0, _⟩ =>
      show win2_0.index t (0 : Fin 2) * 5000 + 1 * (j 0).val = win2_2.index t (0 : Fin 2) * 5000 + 1 * (j 0).val
      omega
    | ⟨1, _⟩ =>
      show win2_0.index t (1 : Fin 2) * 128 + 1 * k.val = k.val
      omega
  · show V c main_arg6 (((cfg2.win 1).blk t).view.emb (ix2 k (n1 := 128) (j 1))) = V c main_arg6 _
    refine congrArg (V c main_arg6) (funext fun a => Fin.ext ?_)
    match a with
    | ⟨0, _⟩ =>
      show win2_1.index t (0 : Fin 2) * 128 + 1 * k.val = k.val
      omega
    | ⟨1, _⟩ =>
      show win2_1.index t (1 : Fin 2) * 128 + 1 * (j 1).val = win2_2.index t (1 : Fin 2) * 128 + 1 * (j 1).val
      omega

/-- An index of the result array is in point `t`'s block iff each coordinate is in the block's range on its axis. -/
theorem memBlock2 (t : Fin cfg2.N) (i : S100000x128.Idx) :
    i ∈ ((cfg2.win 2).blk t).view.set ↔ ∀ a : Fin 2, win2_2.index t a * S5000x128.size a ≤ (i a).val
      ∧ (i a).val < win2_2.index t a * S5000x128.size a + S5000x128.size a := by
  show i ∈ ((View.whole main_v63).slice (win2_2.rect t)).set ↔ _
  rw [View.set_slice_whole, Rect.mem_set_unit]
  exact Iff.rfl

/-- Every row of the result lies in the block of the point `row / 5000`, which writes back. -/
theorem cover2 (i : S100000x128.Idx) :
    ∃ t : Fin cfg2.N, (cfg2.win 2).flush t = true ∧ i ∈ ((cfg2.win 2).blk t).view.set := by
  have hN : cfg2.N = 20 := N_2
  have hi0 : (i 0).val < 100000 := (i 0).isLt
  have hi1 : (i 1).val < 128 := (i 1).isLt
  have ht : (i 0).val / 5000 < cfg2.N := by rw [hN]; omega
  obtain ⟨-, -, -, -, e20, e21⟩ := blockIndex2 ⟨(i 0).val / 5000, ht⟩
  refine ⟨⟨(i 0).val / 5000, ht⟩, flush2_2 _, ?_⟩
  rw [memBlock2]
  intro a
  match a with
  | ⟨0, _⟩ =>
    show win2_2.index ⟨(i 0).val / 5000, ht⟩ (0 : Fin 2) * 5000 ≤ (i 0).val
      ∧ (i 0).val < win2_2.index ⟨(i 0).val / 5000, ht⟩ (0 : Fin 2) * 5000 + 5000
    rw [e20]
    show (i 0).val / 5000 * 5000 ≤ (i 0).val ∧ (i 0).val < (i 0).val / 5000 * 5000 + 5000
    omega
  | ⟨1, _⟩ =>
    show win2_2.index ⟨(i 0).val / 5000, ht⟩ (1 : Fin 2) * 128 ≤ (i 1).val
      ∧ (i 1).val < win2_2.index ⟨(i 0).val / 5000, ht⟩ (1 : Fin 2) * 128 + 128
    omega

/-- After the region the result array holds the whole-array product of the features and the weights the region found. -/
theorem region2 (c : Dev nD) :
    (dat2 V c).arrAt 2 cfg2.N = mm (V c main_v62) (V c main_arg6) :=
  (dat2 V c).arrAt_eq_of_cover 2 (mm (V c main_v62) (V c main_arg6)) (fun t _ => flushed2 V c t) cover2

end Cert.KernelIdeal.Hand

end
-- ==== Proof.Layers.lean ====
/-
  The idealized kernel's three graph-convolution layers, boundary by boundary, against the reference's stages.

  Each layer is a dense product followed by the same host operations in both programs: gather the product's rows by
  every edge's source node, scale each gathered row by the edge's normalisation, sum the rows into their destination
  nodes, add the bias (and, after the first two layers, take the positive part). The kernel computes the dense product
  in a region, 5000 rows at a time; the reference with one `dot_general`. Both are the whole-array product `mm` of the
  same two arrays, so layer by layer the kernel's buffers hold what the reference's stages compute, and the result array
  ends at the reference's last stage of the launch arguments.
-/
import proofs.«153386_j67018669686888_1_alg».proof.Proof.Kept
import proofs.«153386_j67018669686888_1_alg».proof.Proof.Region0
import proofs.«153386_j67018669686888_1_alg».proof.Proof.Region1
import proofs.«153386_j67018669686888_1_alg».proof.Proof.Region2

set_option maxRecDepth 16384

noncomputable section

namespace Cert.KernelIdeal.Hand

open Idealize.ShloMosaic Idealize.ShloMosaic.TcCoe Idealize.SL.Sem Idealize.ShloMosaic.StableHlo
open Cert.KernelIdeal Cert.KernelIdeal.Gen
open Cert.ReferenceIdeal.Read Cert.Gcn

variable (m : (ℓ : Loc nD τ sig) → Buf (Elt Ideal) ℓ) (ρ : Dev nD → PrngReg)

/-! ## The reference's three `dot_general`s are the whole-array product -/

theorem ref_mm1 (X : FVec Ideal SN .f32) (W : FVec Ideal SW .f32) : val_main_v27 (F := Ideal) X W = mm X W := rfl

/-! ## The first layer -/

/-- After the first region its result array holds the reference's first dense product of the launch arguments. -/
theorem W2_hw (c : Dev nD) :
    W2 m ρ c (Proc.devRef .tc main_v27) = val_main_v27 (F := Ideal) (m ((c : Thread nD τ).loc main_arg0)) (m ((c : Thread nD τ).loc main_arg2)) :=
  (W2_arr m ρ c 2).trans ((region0 (V1 m ρ) c).trans
    ((congrArg₂ mm (W1_arg0 m ρ c) (W1_arg2 m ρ c)).trans (ref_mm1 _ _).symm))

/-- After the first layer's aggregation and bias: the reference's stage. -/
theorem W3_agg (c : Dev nD) :
    W3 m ρ c (Proc.devRef .tc main_v43) = val_main_v43 (F := Ideal) (m ((c : Thread nD τ).loc main_arg0)) (m ((c : Thread nD τ).loc main_arg1)) (m ((c : Thread nD τ).loc main_arg2)) (m ((c : Thread nD τ).loc main_arg3)) := by
  show StableHlo.after hostOps1 (W2 m ρ c) (Proc.devRef .tc main_v43) = _
  after_results_simp
  rw [W2_hw m ρ c, W2_src m ρ c, W2_dst m ρ c, W2_norm m ρ c, W2_arg3 m ρ c]
  rfl

/-- The first relu, from any contents: the positive part of the aggregated buffer. -/
theorem relu1_result (Wv : Valuation τ sig (Elt Ideal)) :
    StableHlo.after hostOps1_1 Wv (Proc.devRef .tc main_v44)
      = maximumf (F := Ideal) (Wv (Proc.devRef .tc main_v43))
          (broadcastInDim S100000x128 ![] bcast_S_S100000x128 (constant S_ .f32 0x00000000#32)) := by
  after_results
  rfl

/-- After the first layer's relu: the reference's first layer output. -/
theorem W4_h (c : Dev nD) :
    W4 m ρ c (Proc.devRef .tc main_v44) = val_main_v44 (F := Ideal) (m ((c : Thread nD τ).loc main_arg0)) (m ((c : Thread nD τ).loc main_arg1)) (m ((c : Thread nD τ).loc main_arg2)) (m ((c : Thread nD τ).loc main_arg3)) := by
  show StableHlo.after hostOps1_1 (W3 m ρ c) (Proc.devRef .tc main_v44) = _
  rw [relu1_result, W3_agg m ρ c]
  rfl

/-! ## The second layer -/

/-- After the second region its result array holds the reference's second dense product. -/
theorem W5_hw (c : Dev nD) :
    W5 m ρ c (Proc.devRef .tc main_v45) = val_main_v45 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  (W5_arr m ρ c 2).trans ((region1 (V4 m ρ) c).trans
    ((congrArg₂ mm (W4_h m ρ c) (W4_arg4 m ρ c)).trans (ref_mm1 _ _).symm))

/-- After the second layer's aggregation and bias: the reference's stage. -/
theorem W6_agg (c : Dev nD) :
    W6 m ρ c (Proc.devRef .tc main_v61) = val_main_v61 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  show StableHlo.after hostOps2 (W5 m ρ c) (Proc.devRef .tc main_v61) = _
  after_results_simp
  rw [W5_hw m ρ c, W5_src m ρ c, W5_dst m ρ c, W5_norm m ρ c, W5_arg5 m ρ c]
  rfl

/-- The second relu, from any contents: the positive part of the aggregated buffer. -/
theorem relu2_result (Wv : Valuation τ sig (Elt Ideal)) :
    StableHlo.after hostOps2_1 Wv (Proc.devRef .tc main_v62)
      = maximumf (F := Ideal) (Wv (Proc.devRef .tc main_v61))
          (broadcastInDim S100000x128 ![] bcast_S_S100000x128 (constant S_ .f32 0x00000000#32)) := by
  after_results
  rfl

/-- After the second layer's relu: the reference's second layer output. -/
theorem W7_h (c : Dev nD) :
    W7 m ρ c (Proc.devRef .tc main_v62) = val_main_v62 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  show StableHlo.after hostOps2_1 (W6 m ρ c) (Proc.devRef .tc main_v62) = _
  rw [relu2_result, W6_agg m ρ c]
  rfl

/-! ## The third layer -/

/-- After the third region its result array holds the reference's third dense product. -/
theorem W8_hw (c : Dev nD) :
    W8 m ρ c (Proc.devRef .tc main_v63) = val_main_v63 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (W8_arr m ρ c 2).trans ((region2 (V7 m ρ) c).trans
    ((congrArg₂ mm (W7_h m ρ c) (W7_arg6 m ρ c)).trans (ref_mm1 _ _).symm))

/-- At the last boundary the result array holds the reference's last stage of the launch arguments. -/
theorem W9_out (c : Dev nD) :
    W9 m ρ c (Proc.devRef .tc main_v79) = val_main_v79 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  show StableHlo.after hostOps3 (W8 m ρ c) (Proc.devRef .tc main_v79) = _
  after_results_simp
  rw [W8_hw m ρ c, W8_src m ρ c, W8_dst m ρ c, W8_norm m ρ c, W8_arg7 m ρ c]
  rfl

end Cert.KernelIdeal.Hand

end
-- ==== Proof.lean ====
/-
  A three-layer graph convolution (100000 nodes, 1.6 million edges with self-loops appended, 128 channels): the kernel
  computes each layer's dense product `h · W` in a Pallas kernel — rows in 20 blocks of 5000, operands rounded to bf16, the
  matrix unit accumulating in f32 — and the reference with one `dot_general`; everything else (the degrees by a
  scatter-add of ones, their inverse square roots, the gathers by source node, the scaling, the scatter-add into
  destination nodes, the bias, the relu) is the same host operations in both programs.

  At the ideal values the rounding is the identity and a block's product at row `r`, column `c` is the exact sum over `k`
  of `h (r, k) · W (k, c)`; the 20 blocks tile the rows, so each region leaves the whole-array product in its result array
  (Region0 / Region1 / Region2 over Payload and Spec), which is what the reference's `dot_general` computes. Sums of
  extended reals may be regrouped freely, so no finiteness of the inputs is used. The host operations between the
  regions are carried along unopened: boundary by boundary the kernel's buffers hold the reference's stages of the launch
  arguments (Kept, Layers), and the result array ends at the reference's last stage (KernelRun names it).
  The ideal pass rewrote nothing, so the idealization claim is trivial; the frames are the generated ones, the
  reference's its generated run with the result dropped.
-/
import proofs.«153386_j67018669686888_1_alg».proof.Defs
import proofs.«153386_j67018669686888_1_alg».proof.Proof.Gen.Kernel
import proofs.«153386_j67018669686888_1_alg».proof.Proof.Gen.Kernel.Skeleton
import proofs.«153386_j67018669686888_1_alg».proof.Proof.Gen.Kernel.Launch
import proofs.«153386_j67018669686888_1_alg».proof.Proof.Gen.Kernel.Points
import proofs.«153386_j67018669686888_1_alg».proof.Proof.Gen.Kernel.Frame
import proofs.«153386_j67018669686888_1_alg».proof.Proof.Gen.KernelIdeal
import proofs.«153386_j67018669686888_1_alg».proof.Proof.Gen.KernelIdeal.Skeleton
import proofs.«153386_j67018669686888_1_alg».proof.Proof.Gen.KernelIdeal.Launch
import proofs.«153386_j67018669686888_1_alg».proof.Proof.Gen.KernelIdeal.Points
import proofs.«153386_j67018669686888_1_alg».proof.Proof.Gen.KernelIdeal.Frame
import proofs.«153386_j67018669686888_1_alg».proof.Proof.Gen.ReferenceIdeal
import proofs.«153386_j67018669686888_1_alg».proof.Proof.Gen.ReferenceIdeal.Run
import proofs.«153386_j67018669686888_1_alg».proof.Proof.Gen.ReferenceIdeal.Read
import proofs.«153386_j67018669686888_1_alg».proof.Proof.Gen.Pre_finite_inputs
import proofs.«153386_j67018669686888_1_alg».proof.Proof.KernelRun
import proofs.«153386_j67018669686888_1_alg».proof.Proof.Layers
import Idealize.ShloMosaic.Adequacy
import Idealize.ShloMosaic.Init

noncomputable section

namespace Cert.Proof

open Idealize.ShloMosaic Idealize.ShloMosaic.TcCoe Idealize.SL.Sem

/-- The kernel as printed runs and leaves its arguments as launched. -/
theorem frame_kernel : @Cert.frame_Kernel Cert.Kernel.Gen.facts Cert.Pre_finite_inputs.Gen.facts :=
  fun m ρ _ => Cert.Kernel.Gen.frame m ρ

/-- So does the idealized kernel. -/
theorem frame_kernelIdeal : @Cert.frame_KernelIdeal Cert.KernelIdeal.Gen.facts Cert.Pre_finite_inputs.Gen.facts :=
  fun m ρ _ => Cert.KernelIdeal.Gen.frame m ρ

/-- And the idealized reference: its run, with the result dropped. -/
theorem frame_referenceIdeal : @Cert.frame_ReferenceIdeal Cert.ReferenceIdeal.Gen.facts Cert.Pre_finite_inputs.Gen.facts :=
  fun m ρ _ => (θ_run Cert.ReferenceIdeal.defs _ _).mono (fun _ h c => (h c).2)
    (Cert.ReferenceIdeal.Value.run (F := Ideal) m ρ)

/-- The ideal pass rewrote no operation. -/
theorem preserves : Cert.preserves_Kernel_KernelIdeal := trivial

/-- From memories agreeing on the arguments both idealized programs end with the result array at the reference's last
    stage of the arguments: the kernel's by its regions' whole-array products under the shared host operations, the
    reference's by its own run. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.ReferenceIdeal.Read.val_main_v79 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun _ h c => ⟨(h c).1.trans (Cert.KernelIdeal.Hand.W9_out m ρ c), (h c).2⟩)
      (Cert.KernelIdeal.Hand.run_result (F := Ideal) m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7⟩ := hagree c
    rw [Cert.ReferenceIdeal.Read.val_main_v79_eq, e0, e1, e2, e3, e4, e5, e6, e7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
